-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x1024x1024 : Shape := ⟨4, ![64, 1, 1024, 1024]⟩
abbrev S_ : Shape := ⟨0, ![]⟩

class Facts : Prop where
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_
  h_S_ : 0 < S_.numel

variable [Facts]

def fn {F : FTy → Type} [FloatOps F] (main_arg0 : FVec F S64x1x1024x1024 .f32) : IVec S_ 1 :=
  let main_v0 : FVec F S64x1x1024x1024 .f32 := Host.absf main_arg0
  let main_cst : FVec F S_ .f32 := constant S_ .f32 0x7F800000#32
  let main_v1 : FVec F S64x1x1024x1024 .f32 := broadcastInDim S64x1x1024x1024 ![] bcast_S_S64x1x1024x1024 main_cst
  let main_v2 : IVec S64x1x1024x1024 1 := cmpf .olt main_v0 main_v1
  let main_c : IVec S_ 1 := constantI S_ 1 1#1
  let main_v3 : IVec S_ 1 := (fun x v => Host.reduce IntOp.andi x v reducesTo_S64x1x1024x1024_S_d0_1_2_3 h_S_) main_v2 main_c
  main_v3
-- ==== Kernel.lean ====
abbrev S64x1x1024x1024 : Shape := ⟨4, ![64, 1, 1024, 1024]⟩
abbrev S2x32768x1024 : Shape := ⟨3, ![2, 32768, 1024]⟩
abbrev S2x1x1 : Shape := ⟨3, ![2, 1, 1]⟩
abbrev S1x2048x1024 : Shape := ⟨3, ![1, 2048, 1024]⟩
abbrev S1x1x1 : Shape := ⟨3, ![1, 1, 1]⟩
abbrev S1x1024 : Shape := ⟨2, ![1, 1024]⟩
abbrev S2048x1024 : Shape := ⟨2, ![2048, 1024]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S64x1x1024x1024, .f32⟩
  | .hbm, ⟨1, _⟩ => ⟨S2x32768x1024, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1, .f32⟩
  | .local _ .vmem, ⟨3, _⟩ => ⟨S1x1x1, .f32⟩
  | .local _ .vmem, ⟨4, _⟩ => ⟨S1x1024, .f32⟩
  | _, _ => ⟨S64x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_14 : BitVec 32 := 0#32
  let v31 : BitVec 1 := Scalar.cmpi .ne v30 c0_i32_14
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x1x1024x1024_S2x32768x1024 : S64x1x1024x1024.ShapeCasts S2x32768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S2048x1024_S1024 : S2048x1024.Reduces [0] S1024
  shapeCasts_S1024_S1x1024 : S1024.ShapeCasts S1x1024
  reduces_S1x1024_S1 : S1x1024.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x32768x1024.size a
  hwx0_0 : ∀ i : grid0.Coords, EltTy.bits .f32 = 32 ∨ (Rect.block (s := S2x32768x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)

variable [Facts₀]

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x1x1024x1024 : Shape := ⟨4, ![64, 1, 1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S64x1x1024x1024, .f32⟩
  | .hbm, ⟨1, _⟩ => ⟨S_, .f32⟩
  | .hbm, ⟨2, _⟩ => ⟨S64x1x1024x1024, .f32⟩
  | .hbm, ⟨3, _⟩ => ⟨S64x1x1024x1024, .f32⟩
  | .hbm, ⟨4, _⟩ => ⟨S_, .f32⟩
  | .hbm, ⟨5, _⟩ => ⟨S64x1x1024x1024, .f32⟩
  | .hbm, ⟨6, _⟩ => ⟨S64x1x1024x1024, .f32⟩
  | .hbm, ⟨7, _⟩ => ⟨S64x1x1024x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x1x1024x1024, .f32⟩
  | .hbm, ⟨12, _⟩ => ⟨S64x1x1024x1024, .f32⟩
  | .hbm, ⟨13, _⟩ => ⟨S_, .f32⟩
  | .hbm, ⟨14, _⟩ => ⟨S64x1x1024x1024, .f32⟩
  | .hbm, ⟨15, _⟩ => ⟨S64x1x1024x1024, .f32⟩
  | .hbm, ⟨16, _⟩ => ⟨S_, .f32⟩
  | .hbm, ⟨17, _⟩ => ⟨S64x1x1024x1024, .f32⟩
  | .hbm, ⟨18, _⟩ => ⟨S64x1x1024x1024, .f32⟩
  | .hbm, ⟨19, _⟩ => ⟨S_, .f32⟩
  | .hbm, ⟨20, _⟩ => ⟨S64x1x1024x1024, .f32⟩
  | .hbm, ⟨21, _⟩ => ⟨S64x1x1024x1024, .f32⟩
  | .hbm, ⟨22, _⟩ => ⟨S64x1x1024x1024, .f32⟩
  | .hbm, ⟨23, _⟩ => ⟨S64x1x1024x1024, .f32⟩
  | .hbm, ⟨24, _⟩ => ⟨S_, .f32⟩
  | .hbm, ⟨25, _⟩ => ⟨S64x1x1024x1024, .f32⟩
  | .hbm, ⟨26, _⟩ => ⟨S64x1x1024x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S64x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_cst_2 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_
  h_S_ : 0 < S_.numel

variable [Facts₀]

class Facts : Prop extends Facts₀ where

variable [Facts]
-- ==== Proof.PointDist.lean ====
/-
  The mathematics both programs compute, with no program in sight.

  A sample `x` is sent to the nearest of the 256 levels `k / 127.5 - 1`, `k = 0 … 255`: the level index is
  `clip (roundeven ((x + 1) · 127.5)) 0 255`, and the sample's distance to that level is capped at one (`dist`).
  The result is the mean of the distances over all 2²⁶ samples.

  One program adds the distances in one sweep. The other views the samples as a `[2, 32768, 1024]` array, cuts each
  of the two halves into sixteen tiles of 2048 rows, adds each tile's rows lane by lane, adds the sixteen lane
  vectors one after the other, adds the 1024 lanes, and finally adds the two halves. Over the extended reals addition
  is commutative and associative, so the two orders give one sum (`halves_sum_eq`); no sample needs to be finite for that.
-/
import Idealize.ShloMosaic.PureOps.Ideal
import Idealize.ShloMosaic.PureOps.Ideal.Laws
import Idealize.ShloMosaic.Lib.ValueIdx

noncomputable section

namespace Quantize

open Idealize.ShloMosaic Idealize.ShloMosaic.ValueIdx

/-- The four constants, each the exact value of its binary word: one, the scale 127.5, the top level index 255, zero. -/
abbrev one : Ideal .f32 := FloatOps.ofBits (F := Ideal) .f32 0x3F800000#32
abbrev scale : Ideal .f32 := FloatOps.ofBits (F := Ideal) .f32 0x42FF0000#32
abbrev top : Ideal .f32 := FloatOps.ofBits (F := Ideal) .f32 0x437F0000#32
abbrev zero : Ideal .f32 := FloatOps.ofBits (F := Ideal) .f32 0x00000000#32

/-- The index of the level nearest to `x`: `(x + 1) · 127.5` rounded to the nearest integer, ties to even, kept in `[0, 255]`. -/
def level (x : Ideal .f32) : Ideal .f32 :=
  FloatOps.minimumf top (FloatOps.maximumf zero (FloatOps.roundeven (FloatOps.mulf (FloatOps.addf x one) scale)))

/-- The distance from `x` to its nearest level `level x / 127.5 - 1`, capped at one. -/
def dist (x : Ideal .f32) : Ideal .f32 :=
  FloatOps.minimumf (FloatOps.absf (FloatOps.subf x (FloatOps.subf (FloatOps.divf (level x) scale) one))) one

/-- The number of samples, 2²⁶, as the exact value of its binary word. -/
abbrev count : Ideal .f32 := FloatOps.ofBits (F := Ideal) .f32 0x4C800000#32

/-- The mean both programs end with: the total, added to a zero, over the number of samples. -/
def mean (total : EReal) : Ideal .f32 := FloatOps.hostDivf (F := Ideal) (φ := .f32) (zero + total) count

/-! ## The tiled order of summation -/

/-- The samples as the tiled program sees them. -/
abbrev Halves : Shape := ⟨3, ![2, 32768, 1024]⟩

/-- Row `r` of tile `k` of a half is row `2048 k + r` of the half. -/
def tileRow (k : Fin 16) (r : Fin 2048) : Fin 32768 :=
  ⟨2048 * k.val + r.val, by have := k.isLt; have := r.isLt; omega⟩

/-- A half's rows are its sixteen tiles' rows. -/
def rowEquiv : Fin 16 × Fin 2048 ≃ Fin 32768 where
  toFun kr := tileRow kr.1 kr.2
  invFun row := (⟨row.val / 2048, by have := row.isLt; omega⟩, ⟨row.val % 2048, by omega⟩)
  left_inv kr := by
    have h1 := kr.1.isLt
    have h2 := kr.2.isLt
    refine Prod.ext (Fin.ext ?_) (Fin.ext ?_)
    · show (2048 * kr.1.val + kr.2.val) / 2048 = kr.1.val
      omega
    · show (2048 * kr.1.val + kr.2.val) % 2048 = kr.2.val
      omega
  right_inv row := by
    apply Fin.ext
    show 2048 * (row.val / 2048) + row.val % 2048 = row.val
    omega

/-- The sum of tile `k`'s rows of half `p`, at lane `l`. -/
def tileSum (D : Halves.Idx → EReal) (p : Fin 2) (k : Fin 16) (l : Fin 1024) : EReal :=
  ∑ r : Fin 2048, D (ix3 p (tileRow k r) l)

/-- Tile `k`'s row sum when `k` is a tile, else nothing: the addend of the running sum. -/
def tileTerm (D : Halves.Idx → EReal) (p : Fin 2) (l : Fin 1024) (k : ℕ) : EReal :=
  if h : k < 16 then tileSum D p ⟨k, h⟩ l else 0

/-- The running sum over the first `n` tiles of half `p`, at lane `l`. -/
def running (D : Halves.Idx → EReal) (p : Fin 2) (n : ℕ) (l : Fin 1024) : EReal :=
  ∑ k ∈ Finset.range n, tileTerm D p l k

theorem running_one (D : Halves.Idx → EReal) (p : Fin 2) (l : Fin 1024) :
    running D p 1 l = tileSum D p 0 l := by
  unfold running
  rw [Finset.sum_range_one]
  exact dif_pos (by decide)

theorem running_succ (D : Halves.Idx → EReal) (p : Fin 2) (n : ℕ) (h : n < 16) (l : Fin 1024) :
    running D p (n + 1) l = running D p n l + tileSum D p ⟨n, h⟩ l := by
  unfold running
  rw [Finset.sum_range_succ]
  exact congrArg (_ + ·) (dif_pos h)

theorem running_all (D : Halves.Idx → EReal) (p : Fin 2) (l : Fin 1024) :
    running D p 16 l = ∑ k : Fin 16, tileSum D p k l := by
  unfold running
  rw [← Fin.sum_univ_eq_sum_range (tileTerm D p l) 16]
  exact Finset.sum_congr rfl fun k _ => dif_pos k.isLt

/-- What half `p` contributes: its sixteen-tile running sum, added over the lanes. -/
def halfSum (D : Halves.Idx → EReal) (p : Fin 2) : EReal :=
  ∑ l : Fin 1024, running D p 16 l

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A half's contribution is the plain sum over its rows and lanes. -/
theorem halfSum_eq (D : Halves.Idx → EReal) (p : Fin 2) :
    halfSum D p = ∑ row : Fin 32768, ∑ l : Fin 1024, D (ix3 p row l) := by
  unfold halfSum
  simp only [running_all, tileSum]
  rw [← Equiv.sum_comp rowEquiv (fun row => ∑ l : Fin 1024, D (ix3 p row l)), Fintype.sum_prod_type]
  rw [Finset.sum_comm]
  refine Finset.sum_congr rfl fun k _ => ?_
  rw [Finset.sum_comm]
  rfl

/-- The two halves' contributions, each held at the one index `(p, 0, 0)` of a `[2, 1, 1]` array and added up, are the
    sum over every sample. -/
theorem halves_sum_eq (D : Halves.Idx → EReal) :
    ∑ j : (⟨3, ![2, 1, 1]⟩ : Shape).Idx, halfSum D (j 0) = ∑ i : Halves.Idx, D i := by
  rw [sum_idx3 (fun j : (⟨3, ![2, 1, 1]⟩ : Shape).Idx => halfSum D (j 0)), sum_idx3 D]
  refine Finset.sum_congr rfl fun p _ => ?_
  rw [Fin.sum_univ_one, Fin.sum_univ_one]
  exact halfSum_eq D p

end Quantize

end
-- ==== Proof.RefTotal.lean ====
/-
  The reference, read at a sample: its pointwise chain — add one, scale, round to even, clip to [0, 255], divide by the
  scale, subtract one, subtract from the sample, absolute value, cap at one — is `Quantize.dist` of the sample, and its
  result is the mean of those distances over all samples.
-/
import proofs.«117520_j69114613728896_2_alg».proof.Proof.Gen.ReferenceIdeal.Read
import proofs.«117520_j69114613728896_2_alg».proof.Proof.PointDist

noncomputable section

namespace Cert.ReferenceIdeal.RefValue

open Cert.ReferenceIdeal Cert.ReferenceIdeal.Gen Cert.ReferenceIdeal.Read Idealize.ShloMosaic

/-- The capped distance stage at sample `i` is the distance of the sample there to its nearest level. -/
theorem dist_at (x : (⟨S64x1x1024x1024, .f32⟩ : BufTy).Contents (Elt Ideal)) (i : S64x1x1024x1024.Idx) :
    val_main_v13 (F := Ideal) x i = Quantize.dist (x i) := by
  rw [val_main_v13_apply, val_main_v12_apply, val_main_cst_5_apply, val_main_v11_apply, val_main_v10_apply,
    val_main_v9_apply, val_main_v8_apply, val_main_cst_4_apply, val_main_v7_apply, val_main_v6_apply,
    val_main_cst_3_apply, val_main_v5_apply, val_main_call1_v4_apply, val_main_call1_v3_apply, val_main_cst_2_apply,
    val_main_call1_v2_apply, val_main_call1_v1_apply, val_main_call1_v0_apply, val_main_cst_1_apply,
    val_main_v4_apply, val_main_v3_apply, val_main_v2_apply, val_main_cst_0_apply, val_main_v1_apply,
    val_main_v0_apply, val_main_cst_apply]
  rfl

/-- The reference's result is the mean of the distances. -/
theorem mean_eq (x : (⟨S64x1x1024x1024, .f32⟩ : BufTy).Contents (Elt Ideal)) :
    val_main_v15 (F := Ideal) x = fun _ => Quantize.mean (∑ i : S64x1x1024x1024.Idx, Quantize.dist (x i)) := by
  funext i
  rw [val_main_v15_apply, val_main_v14_apply, val_main_cst_7_apply, val_main_cst_6_apply]
  simp only [dist_at]
  rfl

end Cert.ReferenceIdeal.RefValue

end
-- ==== Proof.Found.lean ====
/-
  What one pass of the tiled program's body leaves behind, as values.

  The body keeps a lane vector of 1024 partial sums between grid points. At the first tile of a half it resets the
  vector to zero and adds the tile's row sums (`step` of the tile over the reset block); at every later tile it adds
  the tile's row sums to what the tile before left (`step` of the tile over the carried vector); and at a half's last
  tile it also writes the lane total of the vector it has just updated into the half's one-element output block.
  The lemmas here read those contents off the stores the body was found to make, for any float values.
-/
import proofs.«117520_j69114613728896_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- A later tile of a half: the carried lane vector `acc` becomes `acc` plus the tile's row sums. -/
theorem carried_later (c : Dev nD) (i : grid0.Coords) (a2 : Memref sig .tc .vmem S1x2048x1024 .f32) (h2 : a2.IsWhole)
    (a3 : Memref sig .tc .vmem S1x1x1 .f32) (h3 : a3.IsWhole) (a4 : Memref sig .tc .vmem S1x1024 .f32) (h4 : a4.IsWhole)
    (hc0 : ¬cond0_0 i) (hc1 : ¬cond0_1 i) (x0 : Vec F S1x2048x1024 .f32) (acc : Vec F S1x1024 .f32) :
    sout0_B_0 c i a2 h2 a3 h3 a4 h4 hc0 hc1 x0 acc = k0_pay2 x0 acc := by
  unfold sout0_B_0
  rw [View.read_writes_eq_canon _ _ _ (scover0_B_0 c i a2 h2 a3 h3 a4 h4 hc0 hc1 x0 acc)]
  unfold kernelRun0_B
  dsimp only
  rw [View.canon_unit_zero origin2]
  simp only [View.readAt_eq_ld, h2.read_unread, h4.read_unread, View.ld_unit_zero (S := S1x2048x1024) origin3,
    View.ld_unit_zero (S := S1x1024) origin2]

/-- The first tile of a half: the lane vector is reset, then the tile's row sums are added to the reset block. -/
theorem carried_first (c : Dev nD) (i : grid0.Coords) (a2 : Memref sig .tc .vmem S1x2048x1024 .f32) (h2 : a2.IsWhole)
    (a3 : Memref sig .tc .vmem S1x1x1 .f32) (h3 : a3.IsWhole) (a4 : Memref sig .tc .vmem S1x1024 .f32) (h4 : a4.IsWhole)
    (hc0 : cond0_0 i) (hc1 : ¬cond0_1 i) (x0 : Vec F S1x2048x1024 .f32) :
    sout0_A_0 c i a2 h2 a3 h3 a4 h4 hc0 hc1 x0 = k0_pay2 x0 k0_pay1 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S1x1024) origin2, View.readCov_unit_zero (S := S1x1024) _ origin2]
  simp only [View.readAt_eq_ld, h2.read_unread, View.ld_unit_zero (S := S1x2048x1024) origin3]

/-- The last tile of a half updates the lane vector as every later tile does … -/
theorem carried_last (c : Dev nD) (i : grid0.Coords) (a2 : Memref sig .tc .vmem S1x2048x1024 .f32) (h2 : a2.IsWhole)
    (a3 : Memref sig .tc .vmem S1x1x1 .f32) (h3 : a3.IsWhole) (a4 : Memref sig .tc .vmem S1x1024 .f32) (h4 : a4.IsWhole)
    (hc0 : ¬cond0_0 i) (hc1 : cond0_1 i) (x0 : Vec F S1x2048x1024 .f32) (acc : Vec F S1x1024 .f32) :
    sout0_C_0 c i a2 h2 a3 h3 a4 h4 hc0 hc1 x0 acc = k0_pay2 x0 acc := by
  unfold sout0_C_0
  rw [View.read_writes_eq_canon _ _ _ (scover0_C_0 c i a2 h2 a3 h3 a4 h4 hc0 hc1 x0 acc)]
  unfold kernelRun0_C
  dsimp only
  sl_unfold_words
  rw [View.canon_unit_zero origin2]
  simp only [View.readAt_eq_ld, h2.read_unread, h4.read_unread, View.ld_unit_zero (S := S1x2048x1024) origin3,
    View.ld_unit_zero (S := S1x1024) origin2]

/-- … and writes the lane total of the updated vector into the half's output block. -/
theorem written_last (c : Dev nD) (i : grid0.Coords) (a2 : Memref sig .tc .vmem S1x2048x1024 .f32) (h2 : a2.IsWhole)
    (a3 : Memref sig .tc .vmem S1x1x1 .f32) (h3 : a3.IsWhole) (a4 : Memref sig .tc .vmem S1x1024 .f32) (h4 : a4.IsWhole)
    (hc0 : ¬cond0_0 i) (hc1 : cond0_1 i) (x0 : Vec F S1x2048x1024 .f32) (acc : Vec F S1x1024 .f32) :
    out0_C_1 c i a2 h2 a3 h3 a4 h4 hc0 hc1 x0 acc = k0_pay3 (k0_pay2 x0 acc) := by
  unfold out0_C_1
  rw [View.read_writes_eq_canon _ _ _ (cover0_C_1 c i a2 h2 a3 h3 a4 h4 hc0 hc1 x0 acc)]
  unfold kernelRun0_C
  dsimp only
  sl_unfold_words
  rw [View.canon_unit_zero origin3, View.readCov_unit_zero (S := S1x1024) _ origin2]
  simp only [View.readAt_eq_ld, h2.read_unread, h4.read_unread, View.ld_unit_zero (S := S1x2048x1024) origin3,
    View.ld_unit_zero (S := S1x1024) origin2]

end Cert.KernelIdeal.Found

end
-- ==== Proof.StepValue.lean ====
/-
  The body's three stored values, read lane by lane over the extended reals.

  The reset block is zero. The update of the lane vector adds to lane `l` of the carried vector the sum, over the
  tile's 2048 rows `r`, of the distance of the sample at `(r, l)` to its nearest level. The value written at a half's
  last tile is the sum of the lane vector's 1024 lanes.
-/
import proofs.«117520_j69114613728896_2_alg».proof.Proof.Gen.KernelIdeal.Skeleton
import proofs.«117520_j69114613728896_2_alg».proof.Proof.PointDist
import Idealize.ShloMosaic.Lib.Pipeline.Value
import Idealize.ShloMosaic.Lib.ValueLayout
import Idealize.ShloMosaic.PureOps.Ideal.Laws

noncomputable section

namespace Cert.KernelIdeal.Step

open Cert.KernelIdeal Cert.KernelIdeal.Gen Idealize.ShloMosaic Idealize.ShloMosaic.ValueIdx

/-- The reset block is zero in every lane. -/
theorem reset_apply (y : S1x1024.Idx) : k0_pay1 (F := Ideal) y = 0 := by
  unfold k0_pay1
  rw [shapeCast_self]
  exact Ideal.ofBits_zero_f32

/-- Row `r` put back in front of lane `l`: the index the row sum at lane `l` reads. -/
theorem row_lift (h : S2048x1024.Reduces [0] S1024) (l : Fin 1024) (r : Fin 2048) :
    h.lift (ix1 l) r = ix2 r l := by
  funext a
  match a with
  | ⟨0, _⟩ => rfl
  | ⟨1, _⟩ => rfl

/-- Lane `l` put back behind the unit row: the index the lane total reads. -/
theorem lane_lift (h : S1x1024.Reduces [1] S1) (u : Fin 1) (l : Fin 1024) :
    h.lift (ix1 u) l = ix2 u l := by
  funext a
  match a with
  | ⟨0, _⟩ => rfl
  | ⟨1, _⟩ => rfl

/-- A sum over the rows of a `[2048, 1024]` block, from the zero word. -/
theorem rows_sum (src : FVec Ideal S2048x1024 .f32) (h : S2048x1024.Reduces [0] S1024)
    (hφ : FKind.Formats .f32) (hacc : (0x00000000#32 : BitVec 32) = FKind.add.neutral .f32 hφ) (l : Fin 1024) :
    multiReduction .add [0] S1024 src 0x00000000#32 h hφ hacc (ix1 l) = ∑ r : Fin 2048, src (ix2 r l) :=
  (Ideal.multiReduction_add_single src 0x00000000#32 h hφ hacc (ix1 l)).trans
    (Finset.sum_congr rfl fun r _ => congrArg src (row_lift h l r))

/-- A sum over the lanes of a `[1, 1024]` block, from the zero word. -/
theorem lanes_sum (src : FVec Ideal S1x1024 .f32) (h : S1x1024.Reduces [1] S1)
    (hφ : FKind.Formats .f32) (hacc : (0x00000000#32 : BitVec 32) = FKind.add.neutral .f32 hφ) (u : Fin 1) :
    multiReduction .add [1] S1 src 0x00000000#32 h hφ hacc (ix1 u) = ∑ l : Fin 1024, src (ix2 u l) :=
  (Ideal.multiReduction_add_single src 0x00000000#32 h hφ hacc (ix1 u)).trans
    (Finset.sum_congr rfl fun l _ => congrArg src (lane_lift h u l))

/-- The update of the lane vector, at lane `l`: the carried value plus the tile's row sum of distances. -/
theorem step_apply (x0 : Vec Ideal S1x2048x1024 .f32) (acc : Vec Ideal S1x1024 .f32) (u : Fin 1) (l : Fin 1024) :
    k0_pay2 (F := Ideal) x0 acc (ix2 u l) = acc (ix2 u l) + ∑ r : Fin 2048, Quantize.dist (x0 (ix3 (0 : Fin 1) r l)) := by
  unfold k0_pay2
  rw [shapeCast_self]
  refine congrArg (acc (ix2 u l) + ·) ?_
  refine (shapeCast_a_1a_apply _ _ u l).trans ?_
  refine (rows_sum _ _ _ _ l).trans ?_
  refine Finset.sum_congr rfl fun r _ => ?_
  show Quantize.dist (shapeCast S2048x1024 x0 _ (ix2 r l)) = _
  exact congrArg Quantize.dist (shapeCast_1ab_ab_apply x0 _ r l)

/-- The value written at a half's last tile: the lane vector's total. -/
theorem total_apply (v : Vec Ideal S1x1024 .f32) (y : S1x1x1.Idx) :
    k0_pay3 (F := Ideal) v y = ∑ l : Fin 1024, v (ix2 (0 : Fin 1) l) := by
  unfold k0_pay3
  obtain ⟨a, b, c, rfl⟩ : ∃ (a b c : Fin 1), y = ix3 a b c := ⟨y 0, y 1, y 2, eq_ix3 y⟩
  refine (shapeCast_ab_1ab_apply _ _ a b c).trans ?_
  refine (shapeCast_a_1a_apply _ _ b c).trans ?_
  obtain rfl : c = 0 := Subsingleton.elim _ _
  exact lanes_sum _ _ _ _ 0

end Cert.KernelIdeal.Step

end
-- ==== Proof.Tiles.lean ====
/-
  What the lane vector and the output block hold after each grid point of the tiled program, over the extended reals.

  Grid point `t` (of 32) works on half `t / 16` and on its tile `t % 16`: the block it is handed is rows
  `2048 (t % 16) … 2048 (t % 16) + 2047` of that half of the samples (`tile_read`). By induction on the point the lane
  vector holds, after point `t`, the running sum of the row sums of tiles `0 … t % 16` of half `t / 16` (`carried_eq`):
  the half's first tile starts it from the reset block, each later tile adds its row sums to what the tile before left.
  At a half's last tile the block written out is the lane total of the full running sum, the half's contribution to the
  total (`half_total`).
-/
import proofs.«117520_j69114613728896_2_alg».proof.Proof.Gen.KernelIdeal.Frame
import proofs.«117520_j69114613728896_2_alg».proof.Proof.PointDist
import proofs.«117520_j69114613728896_2_alg».proof.Proof.Found
import proofs.«117520_j69114613728896_2_alg».proof.Proof.StepValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tiles

open Cert.KernelIdeal Cert.KernelIdeal.Gen Idealize.ShloMosaic.ValueIdx

variable (m : (ℓ : Loc nD τ sig) → Buf (Elt Ideal) ℓ)

/-- The samples as the tiled program's region finds them: the argument viewed as two halves of 32768 rows. -/
def samples (c : Dev nD) : Quantize.Halves.Idx → Ideal .f32 :=
  shapeCast S2x32768x1024 (m ((c : Thread nD τ).loc main_arg0)) shapeCasts_S64x1x1024x1024_S2x32768x1024

theorem entry_eq (c : Dev nD) : (V m c main_v0 : S2x32768x1024.Idx → Ideal .f32) = samples m c := by
  show StableHlo.after hostOps0 (fun b => m (c, b)) (Proc.devRef .tc main_v0) = _
  after_results
  rfl

/-- Grid point `t` works on half `t / 16` … -/
def half (t : Fin cfg0.N) : Fin 2 := ⟨t.val / 16, by have := t.isLt; have : cfg0.N = 32 := N_0; omega⟩
/-- … and on its tile `t % 16`. -/
def tile (t : Fin cfg0.N) : Fin 16 := ⟨t.val % 16, by omega⟩

theorem tile_index : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)

theorem tile_read (c : Dev nD) (t : Fin cfg0.N) (r : Fin 2048) (l : Fin 1024) :
    (iblk m c 0 t : Vec Ideal S1x2048x1024 .f32) (ix3 (0 : Fin 1) r l)
      = samples m c (ix3 (half t) (Quantize.tileRow (tile t) r) l) := by
  have hi := tile_index t
  unfold iblk
  rw [View.read_apply]
  show V m c main_v0 _ = _
  rw [entry_eq]
  refine congrArg (samples m c) (funext fun a => Fin.ext ?_)
  match a with
  | ⟨0, _⟩ => show win0_0.index t 0 * 1 + 1 * 0 = t.val / 16; rw [hi.1]; omega
  | ⟨1, _⟩ => show win0_0.index t 1 * 2048 + 1 * r.val = 2048 * (t.val % 16) + r.val; rw [hi.2.1]; omega
  | ⟨2, _⟩ => show win0_0.index t 2 * 1024 + 1 * l.val = l.val; rw [hi.2.2]; omega

/-- The distances of the samples to their nearest levels. -/
def dists (c : Dev nD) : Quantize.Halves.Idx → EReal := fun j => Quantize.dist (samples m c j)

/-- The row sums of the block at point `t` are the row sums of tile `t % 16` of half `t / 16`. -/
theorem tile_sum (c : Dev nD) (t : Fin cfg0.N) (l : Fin 1024) :
    ∑ r : Fin 2048, Quantize.dist ((iblk m c 0 t : Vec Ideal S1x2048x1024 .f32) (ix3 (0 : Fin 1) r l))
      = Quantize.tileSum (dists m c) (half t) (tile t) l :=
  Finset.sum_congr rfl fun r _ => congrArg Quantize.dist (tile_read m c t r l)

theorem prev_lt (t : Fin cfg0.N) : t.val - 1 < cfg0.N := Nat.lt_of_le_of_lt (Nat.sub_le _ _) t.isLt

/-- At a half's first tile the lane vector ends at the tile's row sums. -/
theorem lane_first (c : Dev nD) (t : Fin cfg0.N) (h0 : t.val % 16 = 0) (u : Fin 1) (l : Fin 1024) :
    (outsAt0 m c t.val t.isLt).2 (ix2 u l) = Quantize.tileSum (dists m c) (half t) (tile t) l := by
  have h1 : ¬ t.val % 16 = 15 := by omega
  rw [outsAt0_A m c t h0 h1]
  dsimp only
  refine (congrFun (Found.carried_first (F := Ideal) c (grid0.coords t) (ms0_0 t) (hs0_0 t) (ms0_1 t) (hs0_1 t) scM0_0
    (Memref.isWhole_whole _) ((hcond0_0 t).mpr h0) (fun h => h1 ((hcond0_1 t).mp h)) (iblk m c 0 t)) (ix2 u l)).trans ?_
  refine (Step.step_apply (iblk m c 0 t) (k0_pay1 (F := Ideal)) u l).trans ?_
  rw [Step.reset_apply, zero_add]
  exact tile_sum m c t l

/-- At a later tile the lane vector ends at what the tile before left plus the tile's row sums. -/
theorem lane_later (c : Dev nD) (t : Fin cfg0.N) (h0 : ¬ t.val % 16 = 0) (u : Fin 1) (l : Fin 1024) :
    (outsAt0 m c t.val t.isLt).2 (ix2 u l)
      = (outsAt0 m c (t.val - 1) (prev_lt t)).2 (ix2 u l) + Quantize.tileSum (dists m c) (half t) (tile t) l := by
  by_cases h1 : t.val % 16 = 15
  · rw [outsAt0_C m c t h0 h1]
    dsimp only
    refine (congrFun (Found.carried_last (F := Ideal) c (grid0.coords t) (ms0_0 t) (hs0_0 t) (ms0_1 t) (hs0_1 t) scM0_0
      (Memref.isWhole_whole _) (fun h => h0 ((hcond0_0 t).mp h)) ((hcond0_1 t).mpr h1) (iblk m c 0 t)
      (outsAt0 m c (t.val - 1) (prev_lt t)).2) (ix2 u l)).trans ?_
    refine (Step.step_apply (iblk m c 0 t) (outsAt0 m c (t.val - 1) (prev_lt t)).2 u l).trans ?_
    rw [tile_sum]
  · rw [outsAt0_B m c t h0 h1]
    dsimp only
    refine (congrFun (Found.carried_later (F := Ideal) c (grid0.coords t) (ms0_0 t) (hs0_0 t) (ms0_1 t) (hs0_1 t) scM0_0
      (Memref.isWhole_whole _) (fun h => h0 ((hcond0_0 t).mp h)) (fun h => h1 ((hcond0_1 t).mp h)) (iblk m c 0 t)
      (outsAt0 m c (t.val - 1) (prev_lt t)).2) (ix2 u l)).trans ?_
    refine (Step.step_apply (iblk m c 0 t) (outsAt0 m c (t.val - 1) (prev_lt t)).2 u l).trans ?_
    rw [tile_sum]

/-- After point `n` the lane vector holds the running sum over tiles `0 … n % 16` of half `n / 16`: by induction on the point. -/
theorem carried_eq (c : Dev nD) : ∀ (n : ℕ) (h : n < cfg0.N) (u : Fin 1) (l : Fin 1024),
    (outsAt0 m c n h).2 (ix2 u l) = Quantize.running (dists m c) (half ⟨n, h⟩) (n % 16 + 1) l
  | 0, h, u, l => by
    rw [show (0 % 16 + 1) = 1 from rfl, Quantize.running_one]
    exact lane_first m c ⟨0, h⟩ rfl u l
  | n + 1, h, u, l => by
    have hN : cfg0.N = 32 := N_0
    by_cases h0 : (n + 1) % 16 = 0
    · rw [h0, show (0 + 1) = 1 from rfl, Quantize.running_one]
      refine (lane_first m c ⟨n + 1, h⟩ h0 u l).trans ?_
      rw [show tile ⟨n + 1, h⟩ = 0 from Fin.ext h0]
    · rw [lane_later m c ⟨n + 1, h⟩ h0 u l]
      show (outsAt0 m c n _).2 (ix2 u l) + _ = _
      rw [carried_eq c n (Nat.lt_of_succ_lt h) u l]
      have hh : half ⟨n, Nat.lt_of_succ_lt h⟩ = half ⟨n + 1, h⟩ := Fin.ext (by show n / 16 = (n + 1) / 16; omega)
      have hk : n % 16 + 1 = (n + 1) % 16 := by omega
      have ht : (n + 1) % 16 < 16 := by omega
      rw [hh, hk, Quantize.running_succ _ _ _ ht]
      rfl

/-- At a half's last tile the lane vector holds the half's sixteen-tile running sum … -/
theorem lane_last (c : Dev nD) (t : Fin cfg0.N) (h1 : t.val % 16 = 15) (l : Fin 1024) :
    (outsAt0 m c t.val t.isLt).2 (ix2 (0 : Fin 1) l) = Quantize.running (dists m c) (half t) 16 l := by
  have h := carried_eq m c t.val t.isLt 0 l
  rw [h1] at h
  exact h

/-- … and the output block is written with its lane total, the half's contribution. -/
theorem half_total (c : Dev nD) (t : Fin cfg0.N) (h1 : t.val % 16 = 15) (y : S1x1x1.Idx) :
    (outsAt0 m c t.val t.isLt).1 y = Quantize.halfSum (dists m c) (half t) := by
  have h0 : ¬ t.val % 16 = 0 := by omega
  have hl := lane_last m c t h1
  rw [outsAt0_C m c t h0 h1] at hl ⊢
  dsimp only at hl ⊢
  refine (congrFun (Found.written_last (F := Ideal) c (grid0.coords t) (ms0_0 t) (hs0_0 t) (ms0_1 t) (hs0_1 t) scM0_0
    (Memref.isWhole_whole _) (fun h => h0 ((hcond0_0 t).mp h)) ((hcond0_1 t).mpr h1) (iblk m c 0 t)
    (outsAt0 m c (t.val - 1) (prev_lt t)).2) y).trans ?_
  refine (Step.total_apply _ y).trans (Finset.sum_congr rfl fun l _ => ?_)
  refine (congrFun (Found.carried_last (F := Ideal) c (grid0.coords t) (ms0_0 t) (hs0_0 t) (ms0_1 t) (hs0_1 t) scM0_0
    (Memref.isWhole_whole _) (fun h => h0 ((hcond0_0 t).mp h)) ((hcond0_1 t).mpr h1) (iblk m c 0 t)
    (outsAt0 m c (t.val - 1) (prev_lt t)).2) (ix2 (0 : Fin 1) l)).symm.trans ?_
  exact hl l
-- ==== Proof.Outcome.lean ====
/-
  The tiled program's result.

  Only a half's last grid point writes the half's one-element block of the `[2, 1, 1]` output array back, and what it
  writes is the half's contribution (`flushed_eq`); the two blocks cover the array, so after the run the array holds the
  two contributions (`final_out`). The host's last lines add the two entries to a zero and divide by the number of
  samples (`tail_eq`). The two contributions add up to the sum of the distances over all samples — the tiled order of
  summation against the plain one, and the reshape of the argument a bijection of indices (`total_eq`) — so the program
  ends at the mean distance of the argument's samples (`run`).
-/
import proofs.«117520_j69114613728896_2_alg».proof.Proof.Tiles
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Outcome

open Cert.KernelIdeal Cert.KernelIdeal.Gen Cert.KernelIdeal.Tiles Idealize.ShloMosaic.ValueIdx

variable (m : (ℓ : Loc nD τ sig) → Buf (Elt Ideal) ℓ) (ρ : Dev nD → PrngReg)

/-- The `[2, 1, 1]` output array after the run: each half's contribution at `(p, 0, 0)`. -/
def contributions (c : Dev nD) : Buf (Elt Ideal) ((c : Thread nD τ).loc main_v1) :=
  fun j => Quantize.halfSum (dists m c) (j 0)

theorem out_index : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

theorem block_facts : ∀ (t : Fin cfg0.N) (a : Fin 3), win0_1.size a = 1 ∧ win0_1.xsize (grid0.coords t) a = 1 :=
  (by decide +kernel : ∀ (t : Fin grid0.N) (a : Fin 3), win0_1.size a = 1 ∧ win0_1.xsize (grid0.coords t) a = 1)

theorem flushed_eq (c : Dev nD) (t : Fin cfg0.N) (hf : (cfg0.win 1).flush t = true) :
    (dats m 0 c).flushed 1 t = ((cfg0.win 1).blk t).view.read (Elt Ideal) (contributions m c) := by
  have h1 : t.val % 16 = 15 := (flush0_1 t).mp hf
  have hi := out_index t
  funext y
  show (cfg0.win 1).cut (grid0.coords t) ((dats m 0 c).after 1 t) y = _
  rw [after0_1]
  refine (half_total m c t h1 _).trans ?_
  rw [View.read_apply]
  unfold contributions
  refine congrArg (Quantize.halfSum (dists m c)) (Fin.ext ?_)
  have hy : (y 0).val < win0_1.xsize (grid0.coords t) 0 := (y 0).isLt
  rw [(block_facts t 0).2] at hy
  show t.val / 16 = win0_1.index t 0 * 1 + 1 * (y 0).val
  rw [hi.1]
  omega

/-- The last grid point of half `p`. -/
def lastPoint (p : Fin 2) : Fin cfg0.N := ⟨16 * p.val + 15, by have := p.isLt; have : cfg0.N = 32 := N_0; omega⟩

/-- Every index of the output array lies in the block some half's last point writes back. -/
theorem covered (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0 : Nat) < 2 := (i 0).isLt
  have h1 : (i 1 : Nat) < 1 := (i 1).isLt
  have h2 : (i 2 : Nat) < 1 := (i 2).isLt
  refine ⟨lastPoint ⟨(i 0 : Nat), h0⟩, (flush0_1 _).mpr (by show (16 * (i 0 : Nat) + 15) % 16 = 15; omega), ?_⟩
  show i ∈ ((View.whole main_v1).slice (win0_1.rect (lastPoint ⟨(i 0 : Nat), h0⟩))).set
  rw [View.set_slice_whole, Rect.mem_set_unit]
  have hi := out_index (lastPoint ⟨(i 0 : Nat), h0⟩)
  have hb := block_facts (lastPoint ⟨(i 0 : Nat), h0⟩)
  have hq : (lastPoint ⟨(i 0 : Nat), h0⟩).val / 16 = (i 0 : Nat) := by show (16 * (i 0 : Nat) + 15) / 16 = _; omega
  intro a
  match a with
  | ⟨0, _⟩ =>
    show win0_1.index _ 0 * win0_1.size 0 ≤ (i 0 : Nat) ∧ (i 0 : Nat) < win0_1.index _ 0 * win0_1.size 0 + win0_1.xsize (grid0.coords _) 0
    rw [hi.1, (hb 0).1, (hb 0).2, hq]; omega
  | ⟨1, _⟩ =>
    show win0_1.index _ 1 * win0_1.size 1 ≤ (i 1 : Nat) ∧ (i 1 : Nat) < win0_1.index _ 1 * win0_1.size 1 + win0_1.xsize (grid0.coords _) 1
    rw [hi.2.1, (hb 1).1, (hb 1).2]; omega
  | ⟨2, _⟩ =>
    show win0_1.index _ 2 * win0_1.size 2 ≤ (i 2 : Nat) ∧ (i 2 : Nat) < win0_1.index _ 2 * win0_1.size 2 + win0_1.xsize (grid0.coords _) 2
    rw [hi.2.2, (hb 2).1, (hb 2).2]; omega

/-- So the output array ends holding the two halves' contributions. -/
theorem final_out (c : Dev nD) : (dats m 0 c).arrAt 1 cfg0.N = contributions m c :=
  (dats m 0 c).arrAt_eq_of_cover 1 (contributions m c) (flushed_eq m c) (covered c)

/-- The host's last two lines: the two contributions added to a zero, over the number of samples. -/
theorem tail_eq (c : Dev nD) :
    Pipeline.afterTail₀ cfgs (dats m) 0 (V0 m) [hostOps1] c main_v3
      = fun _ => Quantize.mean (∑ j : S2x1x1.Idx, contributions m c j) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v1)
      = contributions m c :=
    (Pipeline.withArrays_arr spec0 launch0.win.arr_inj c _ _ 1).trans (final_out m c)
  rw [hA]
  funext i
  show FloatOps.hostDivf (F := Ideal) (φ := .f32) (Host.reduceAdd (contributions m c) (constant S_ .f32 0x00000000#32) _ _ i) _ = _
  unfold Quantize.mean
  refine congrArg (fun z => FloatOps.hostDivf (F := Ideal) (φ := .f32) z Quantize.count) ?_
  simp only [Host.reduceAdd, Ideal.hostReduceAdd_def]
  exact Ideal.hostReduceAdd_total _ (fun b => b.elim0) (contributions m c) _ i

/-- The two contributions add up to the sum of the distances of all samples of the argument. -/
theorem total_eq (c : Dev nD) :
    (∑ j : S2x1x1.Idx, contributions m c j : EReal)
      = ∑ i : S64x1x1024x1024.Idx, Quantize.dist (m ((c : Thread nD τ).loc main_arg0) i) := by
  refine (Quantize.halves_sum_eq (dists m c)).trans ?_
  exact Equiv.sum_comp (Shape.reshapeEquiv shapeCasts_S64x1x1024x1024_S2x32768x1024)
    (fun i => Quantize.dist (m ((c : Thread nD τ).loc main_arg0) i))

/-- The tiled program's run, read: its result is the mean of the distances of the argument's samples, the argument
    unchanged. -/
theorem run : θ_run defs (onTc (τ := τ) (main (F := Ideal))) ⟨m, fun _ => 0, ρ⟩ fun r => ∀ c : Dev nD,
      r.2.mem ((c.tc : Thread nD τ).loc main_v3)
        = (fun _ => Quantize.mean (∑ i : S64x1x1024x1024.Idx, Quantize.dist (m ((c.tc : Thread nD τ).loc main_arg0) i)))
      ∧ r.2.mem ((c.tc : Thread nD τ).loc main_arg0) = m ((c.tc : Thread nD τ).loc main_arg0) :=
  (θ_run defs _ _).mono (fun r h c =>
    ⟨((h c).2 main_v3 (Pipeline.mem_restRefs_of main_v3 (by decide) (by decide))).trans
        ((tail_eq m c).trans (by rw [total_eq])),
      ((h c).2 main_arg0 (Pipeline.mem_restRefs_of main_arg0 (by decide) (by decide))).trans (W_main_arg0 m (dats m) c)⟩)
    (run_main m ρ)

end Cert.KernelIdeal.Outcome

end
-- ==== Proof.lean ====
/-
  The mean distance of 2²⁶ samples to the nearest of 256 evenly spaced levels, computed two ways.

  Each sample `x` has a distance `Quantize.dist x`: `(x + 1) · 127.5` is rounded to the nearest integer (ties to even) and
  kept in `[0, 255]`; that index is divided by 127.5 and one is subtracted, which gives the nearest level; the absolute
  difference between the sample and the level is capped at one. Both programs apply exactly these operations, with the
  same constants, to every sample, so over the extended reals they agree sample by sample.

  The reference adds the 2²⁶ distances in one sum and divides by 2²⁶ (`RefValue.mean_eq`). The tiled program views the
  samples as two halves of 32768 rows by 1024 lanes, walks sixteen tiles of 2048 rows per half, keeps a lane vector of
  running row sums per half (`Tiles.carried_eq`), adds the lanes at a half's last tile, and on the host adds the two halves
  and divides by 2²⁶ (`Outcome.run`). The two sums are the same sum in another order (`Quantize.halves_sum_eq`, the
  reshape being a bijection of indices): addition on the extended reals is commutative and associative, so the
  precondition that the samples are finite is never opened.

  The three frames are the generated ones (the reference's is its generated run with the result dropped); the
  idealization rewrote nothing, so it is preserved trivially.
-/
import proofs.«117520_j69114613728896_2_alg».proof.Defs
import proofs.«117520_j69114613728896_2_alg».proof.Proof.Gen.Kernel
import proofs.«117520_j69114613728896_2_alg».proof.Proof.Gen.Kernel.Skeleton
import proofs.«117520_j69114613728896_2_alg».proof.Proof.Gen.Kernel.Launch
import proofs.«117520_j69114613728896_2_alg».proof.Proof.Gen.Kernel.Points
import proofs.«117520_j69114613728896_2_alg».proof.Proof.Gen.Kernel.Frame
import proofs.«117520_j69114613728896_2_alg».proof.Proof.Gen.KernelIdeal
import proofs.«117520_j69114613728896_2_alg».proof.Proof.Gen.KernelIdeal.Skeleton
import proofs.«117520_j69114613728896_2_alg».proof.Proof.Gen.KernelIdeal.Launch
import proofs.«117520_j69114613728896_2_alg».proof.Proof.Gen.KernelIdeal.Points
import proofs.«117520_j69114613728896_2_alg».proof.Proof.Gen.KernelIdeal.Frame
import proofs.«117520_j69114613728896_2_alg».proof.Proof.Gen.ReferenceIdeal
import proofs.«117520_j69114613728896_2_alg».proof.Proof.Gen.ReferenceIdeal.Run
import proofs.«117520_j69114613728896_2_alg».proof.Proof.Gen.ReferenceIdeal.Read
import proofs.«117520_j69114613728896_2_alg».proof.Proof.Gen.Pre_finite_inputs
import proofs.«117520_j69114613728896_2_alg».proof.Proof.RefTotal
import proofs.«117520_j69114613728896_2_alg».proof.Proof.Outcome
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean of the samples' distances, of arguments that agree. -/
theorem algebraic : Cert.algebraic_KernelIdeal_ReferenceIdeal := by
  intro m ρ m' ρ' _ hagree
  refine ⟨_, Cert.KernelIdeal.Outcome.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.mean_eq, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
